-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S512x4096 : Shape := ⟨2, ![512, 4096]⟩
abbrev S1x4096 : Shape := ⟨2, ![1, 4096]⟩
abbrev S512x256 : Shape := ⟨2, ![512, 256]⟩
abbrev S4096 : Shape := ⟨1, ![4096]⟩
abbrev S4096x1 : Shape := ⟨2, ![4096, 1]⟩
abbrev S1x4096x256 : Shape := ⟨3, ![1, 4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .bf16⟩
  | .hbm, ⟨4, _⟩ => ⟨S4096x256, .f32⟩
  | .hbm, ⟨5, _⟩ => ⟨S1x4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S256x256, .f32⟩
  | .local _ .vmem, ⟨4, _⟩ => ⟨S4096x256, .f32⟩
  | .local _ .vmem, ⟨5, _⟩ => ⟨S1x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v9 : BitVec 32 := Scalar.muli arg0 c512_i32
  let v10 : Index := Scalar.indexCast v9
  let c0_2 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  natLt_1_32 : 1 < 32
  h_S512x256 : 0 < S512x256.numel
  shapeCasts_S512x256_S512x256 : S512x256.ShapeCasts S512x256
  shapeCasts_S4096x256_S4096x256 : S4096x256.ShapeCasts S4096x256
  reduces_S512x4096_S4096 : S512x4096.Reduces [0] S4096
  shapeCasts_S4096_S1x4096 : S4096.ShapeCasts S1x4096
  transposes_S1x4096_p1_0_S4096x1 : S1x4096.Transposes [1, 0] S4096x1
  broadcasts_S4096x1_S4096x256 : S4096x1.Broadcasts S4096x256
  inb_S256x256_S256x256_0_0 : ∀ a, (![0, 0] : Fin 2 → Nat) a + S256x256.size a ≤ S256x256.size a
  h_S256x256 : 0 < S256x256.numel
  bcast_S4096x256_S1x4096x256_1_2 : S4096x256.BroadcastsInDim S1x4096x256 (![1, 2] : Fin 2 → Fin S1x4096x256.rank)
  dot_S512x4096_S512x256_S4096x256_0_0_1_1_n_n_wf : DotDims.WF S512x4096 S512x256 S4096x256 [0] [0] [1] [1] [] []
  dot_S4096x256_S256x256_S4096x256_1_1_0_0_n_n_wf : DotDims.WF S4096x256 S256x256 S4096x256 [1] [1] [0] [0] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)

variable [Facts₀]

def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x4096x256 : Shape := ⟨3, ![1, 4096, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x256, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S256x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S1x4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  bcast_S_S4096x256 : S_.BroadcastsInDim S4096x256 (![] : Fin 0 → Fin S4096x256.rank)
  bcast_S4096x256_S1x4096x256_1_2 : S4096x256.BroadcastsInDim S1x4096x256 (![1, 2] : Fin 2 → Fin S1x4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Spec.lean ====
/-
  The layer as one function of its three argument arrays, over the extended reals.

  For a node feature matrix `X` (4096 × 256), an adjacency matrix `A` (4096 × 4096) and a weight matrix `U`
  (256 × 256) the layer's entry at node `i` and feature `d` is

      max (∑ₖ (agg X A i k / deg A i) · U d k) 0,

  where `deg A i = ∑ⱼ A j i` is the `i`-th column sum of `A` and `agg X A i k = ∑ⱼ [A j i > 0] · X j k` adds the
  feature rows of the nodes `j` whose edge weight into `i` is positive. The indicator `[a > 0]` is the comparison's
  one-bit answer read as the number 0 or 1.

  Both column sums run over all 4096 source nodes. They can be taken in eight consecutive blocks of 512 source nodes
  (`deg_blocks`, `agg_blocks`): only commutativity and associativity of `+` are used, so this holds on the extended
  reals with no finiteness assumption.
-/
import Idealize.ShloMosaic.PureOps.Ideal
import Idealize.ShloMosaic.PureOps.Ideal.Laws
import Idealize.ShloMosaic.Lib.ValueIdx
import proofs.«172029_g57251914056251_cont_9to1c4b_270_12_alg».proof.Proof.LibBlockSum

noncomputable section

namespace Cert.Layer

open Idealize.ShloMosaic Idealize.ShloMosaic.ValueIdx

/-- The float zero both programs write as the word `0x00000000`. -/
abbrev zeroWord : Ideal .f32 := Ideal.ofBits .f32 0x00000000#32

/-- The zero word denotes the number zero. -/
theorem zeroWord_eq : zeroWord = (0 : EReal) := Ideal.ofBits_zero_f32

/-- The indicator of a positive entry: the one-bit answer of `a > 0`, read as the number 0 or 1. -/
def pos (a : Ideal .f32) : Ideal .f32 :=
  FloatOps.uitofp (F := Ideal) .f32 (FloatOps.cmpf (F := Ideal) .ogt a zeroWord)

/-- A one-bit word widened to 32 bits and read as a signed integer is the same number as the bit read unsigned:
    the widened word is 0 or 1, below the sign bit. -/
theorem sitofp_setWidth_eq_uitofp (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    by_cases hb : b = 1#1
    · subst hb; decide
    · have := eq_zero_of_ne_one hb; subst this; decide
  rw [h, Int.cast_natCast]

/-- A matrix with 4096 rows read at a row number that is any natural: zero beyond the last row. -/
def rowN {b : ℕ} (X : (⟨2, ![4096, b]⟩ : Shape).Idx → Ideal .f32) (j : ℕ) (i : Fin b) : Ideal .f32 :=
  if h : j < 4096 then X (ix2 ⟨j, h⟩ i) else 0

theorem rowN_fin {b : ℕ} (X : (⟨2, ![4096, b]⟩ : Shape).Idx → Ideal .f32) (j : Fin 4096) (i : Fin b) :
    rowN X j.val i = X (ix2 j i) := by
  unfold rowN; rw [dif_pos j.isLt]

/-- Column `i`'s sum of the adjacency matrix: node `i`'s weighted in-degree. -/
def deg (A : (⟨2, ![4096, 4096]⟩ : Shape).Idx → Ideal .f32) (i : Fin 4096) : Ideal .f32 :=
  ∑ j : Fin 4096, A (ix2 j i)

/-- Feature `k` summed over the nodes with a positive edge weight into node `i`. -/
def agg (X : (⟨2, ![4096, 256]⟩ : Shape).Idx → Ideal .f32) (A : (⟨2, ![4096, 4096]⟩ : Shape).Idx → Ideal .f32)
    (i : Fin 4096) (k : Fin 256) : Ideal .f32 :=
  ∑ j : Fin 4096, pos (A (ix2 j i)) * X (ix2 j k)

/-- The layer's output before the leading unit axis is added. -/
def layer (X : (⟨2, ![4096, 256]⟩ : Shape).Idx → Ideal .f32) (A : (⟨2, ![4096, 4096]⟩ : Shape).Idx → Ideal .f32)
    (U : (⟨2, ![256, 256]⟩ : Shape).Idx → Ideal .f32) : (⟨2, ![4096, 256]⟩ : Shape).Idx → Ideal .f32 :=
  fun y => max (∑ k : Fin 256, Ideal.div (agg X A (y 0) k) (deg A (y 0)) * U (ix2 (y 1) k)) zeroWord

/-- The in-degree taken in eight blocks of 512 source nodes. -/
theorem deg_blocks (A : (⟨2, ![4096, 4096]⟩ : Shape).Idx → Ideal .f32) (i : Fin 4096) :
    ∑ s ∈ Finset.range 8, ∑ l : Fin 512, rowN A (512 * s + l.val) i = deg A i := by
  rw [Cert.Lib.sum_blocks 8 512 (fun j => rowN A j i)]
  show ∑ j : Fin 4096, rowN A j.val i = _
  exact Finset.sum_congr rfl fun j _ => rowN_fin A j i

/-- The neighbour sum taken in eight blocks of 512 source nodes. -/
theorem agg_blocks (X : (⟨2, ![4096, 256]⟩ : Shape).Idx → Ideal .f32) (A : (⟨2, ![4096, 4096]⟩ : Shape).Idx → Ideal .f32)
    (i : Fin 4096) (k : Fin 256) :
    ∑ s ∈ Finset.range 8, ∑ l : Fin 512, pos (rowN A (512 * s + l.val) i) * rowN X (512 * s + l.val) k = agg X A i k := by
  rw [Cert.Lib.sum_blocks 8 512 (fun j => pos (rowN A j i) * rowN X j k)]
  show ∑ j : Fin 4096, pos (rowN A j.val i) * rowN X j.val k = _
  exact Finset.sum_congr rfl fun j _ => by rw [rowN_fin A j i, rowN_fin X j k]

end Cert.Layer

end
-- ==== Proof.RefSide.lean ====
/-
  The reference computes the layer.

  The reference program is a straight line of array operations. Read entry by entry, its column sum of the adjacency
  matrix is `deg`, its product of the transposed 0/1 mask with the features is `agg` (the transpose only swaps the two
  coordinates the mask is read at), the quotient's denominator is the column sum broadcast along the feature axis, the
  second product contracts the quotient's feature axis with the second axis of the weights (again a transpose that
  only swaps coordinates), and the final maximum with zero is taken entry by entry. So the array before the leading
  unit axis is added is `layer`.
-/
import proofs.«172029_g57251914056251_cont_9to1c4b_270_12_alg».proof.Defs
import proofs.«172029_g57251914056251_cont_9to1c4b_270_12_alg».proof.Proof.Gen.ReferenceIdeal.Read
import proofs.«172029_g57251914056251_cont_9to1c4b_270_12_alg».proof.Proof.Spec

noncomputable section

namespace Cert.Layer.Ref

open Idealize.ShloMosaic Idealize.ShloMosaic.ValueIdx Cert.ReferenceIdeal Cert.ReferenceIdeal.Gen Cert.ReferenceIdeal.Read Cert.Layer

/-- The quotient's denominator at node `y 0`, any feature: the in-degree (the sum's initial value is zero). -/
theorem deg_read (x1 : (⟨S4096x4096, .f32⟩ : BufTy).Contents (Elt Ideal)) (y : S4096x256.Idx) (k : Fin 256) :
    val_main_v7 (F := Ideal) x1 (lidx_main_v10 y k) = deg x1 (y 0) := by
  rw [val_main_v7_apply, val_main_v6_apply, val_main_v0_apply]
  show zeroWord + _ = _
  rw [zeroWord_eq, zero_add]
  unfold deg
  exact Finset.sum_congr rfl fun j _ => congrArg x1 (funext fun a => Fin.ext (by
    match a with
    | ⟨0, _⟩ => rfl
    | ⟨1, _⟩ => rfl))

/-- The quotient's numerator at node `y 0` and feature `k`: the neighbour sum. -/
theorem agg_read (x0 : (⟨S4096x256, .f32⟩ : BufTy).Contents (Elt Ideal)) (x1 : (⟨S4096x4096, .f32⟩ : BufTy).Contents (Elt Ideal))
    (y : S4096x256.Idx) (k : Fin 256) :
    val_main_v5 (F := Ideal) x0 x1 (lidx_main_v10 y k) = agg x0 x1 (y 0) k := by
  rw [val_main_v5_apply]
  unfold agg
  refine Finset.sum_congr rfl fun j _ => ?_
  rw [val_main_v4_apply, val_main_v3_apply, val_main_v2_apply, val_main_v1_apply]
  have e1 : idx_main_v4 (lidx_main_v5 (lidx_main_v10 y k) j) = ix2 j (y 0) := funext fun a => Fin.ext (by
    match a with
    | ⟨0, _⟩ => rfl
    | ⟨1, _⟩ => rfl)
  have e2 : ridx_main_v5 (lidx_main_v10 y k) j = ix2 j k := funext fun a => Fin.ext (by
    match a with
    | ⟨0, _⟩ => rfl
    | ⟨1, _⟩ => rfl)
  rw [e1, e2]
  rfl

/-- The reference's array before the leading unit axis is added is the layer. -/
theorem ref_is_layer (x0 : (⟨S4096x256, .f32⟩ : BufTy).Contents (Elt Ideal)) (x1 : (⟨S4096x4096, .f32⟩ : BufTy).Contents (Elt Ideal))
    (x2 : (⟨S256x256, .f32⟩ : BufTy).Contents (Elt Ideal)) :
    val_main_v11 (F := Ideal) x0 x1 x2 = layer x0 x1 x2 := by
  funext y
  rw [val_main_v11_apply, val_main_v10_apply]
  unfold layer
  show max (∑ k : Fin 256, _) _ = max _ _
  refine congrArg₂ max (Finset.sum_congr rfl fun k _ => ?_) ?_
  · rw [val_main_v8_apply, agg_read, deg_read, val_main_v9_apply]
    have e : idx_main_v9 (ridx_main_v10 y k) = ix2 (y 1) k := funext fun a => Fin.ext (by
      match a with
      | ⟨0, _⟩ => rfl
      | ⟨1, _⟩ => rfl)
    rw [e]
    rfl
  · rw [val_main_call0_v0_apply]
    rfl

/-- The reference's result: the layer with a leading unit axis. -/
theorem ref_result (x0 : (⟨S4096x256, .f32⟩ : BufTy).Contents (Elt Ideal)) (x1 : (⟨S4096x4096, .f32⟩ : BufTy).Contents (Elt Ideal))
    (x2 : (⟨S256x256, .f32⟩ : BufTy).Contents (Elt Ideal)) :
    val_main_v12 (F := Ideal) x0 x1 x2
      = broadcastInDim S1x4096x256 ![1, 2] bcast_S4096x256_S1x4096x256_1_2 (layer x0 x1 x2) := by
  unfold val_main_v12
  rw [ref_is_layer]

end Cert.Layer.Ref

end
-- ==== Proof.Pieces.lean ====
/-
  What each kind of grid point leaves in the two buffers the kernel carries from one point to the next.

  The kernel walks eight grid points; point `t` sees rows `512·t … 512·t + 511` of the adjacency matrix. It keeps two
  running buffers: the output block, which accumulates the neighbour sums, and a one-row scratch buffer, which
  accumulates the column sums of the adjacency matrix (the in-degrees). Three kinds of point occur.

  * The first point stores zeros into both buffers, reads them back and adds its block's contribution.
  * A middle point adds its block's contribution to what the point before left.
  * The last point does the same and then overwrites the output block with the epilogue: the completed neighbour sums
    divided row by row by the completed in-degrees, multiplied by the transposed weights, and clamped below at zero.

  Each statement below says that the buffer's final contents are the named arithmetic of the values the point loaded:
  every load and store goes through the whole buffer, except the load of the 512 feature rows that belong to the point.
-/
import proofs.«172029_g57251914056251_cont_9to1c4b_270_12_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 512 feature rows the body loads at grid coordinate `i`: rows `512·i` to `512·i + 511` of its feature block. -/
abbrev xrows (i : grid0.Coords) (x1 : Vec F S4096x256 .bf16) : Vec F S512x256 .bf16 :=
  View.ld x1 (Rect.unit (s := S4096x256) (k0_off1 i) S512x256.size (k0_off1_inb i))

/-- A middle point leaves the in-degree row it found plus its block's column sums. -/
theorem sout_B (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : ¬cond0_1 i) (x0 : Vec F S512x4096 .f32) (x1 : Vec F S4096x256 .bf16) (x2 : Vec F S256x256 .f32) (xo3 : Vec F S4096x256 .f32) (xs0 : Vec F S1x4096 .f32) :
    sout0_B_0 c i arg1 harg1 arg2 harg2 arg3 harg3 arg4 harg4 arg5 harg5 hc0 hc1 x0 x1 x2 xo3 xs0 = k0_pay4 x0 xs0 := by
  unfold sout0_B_0
  rw [View.read_writes_eq_canon _ _ _ (scover0_B_0 c i arg1 harg1 arg2 harg2 arg3 harg3 arg4 harg4 arg5 harg5 hc0 hc1 x0 x1 x2 xo3 xs0)]
  unfold kernelRun0_B
  dsimp only
  rw [View.canon_unit_zero hz]
  simp only [View.readAt_eq_ld, harg1.read_unread, harg5.read_unread, View.ld_unit_zero (S := S512x4096) hz, View.ld_unit_zero (S := S1x4096) hz]

/-- A middle point leaves the neighbour sums it found plus its block's contribution. -/
theorem out_B (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : ¬cond0_1 i) (x0 : Vec F S512x4096 .f32) (x1 : Vec F S4096x256 .bf16) (x2 : Vec F S256x256 .f32) (xo3 : Vec F S4096x256 .f32) (xs0 : Vec F S1x4096 .f32) :
    out0_B_3 c i arg1 harg1 arg2 harg2 arg3 harg3 arg4 harg4 arg5 harg5 hc0 hc1 x0 x1 x2 xo3 xs0 = k0_pay3 x0 (xrows i x1) xo3 := by
  unfold out0_B_3
  rw [View.read_writes_eq_canon _ _ _ (cover0_B_3 c i arg1 harg1 arg2 harg2 arg3 harg3 arg4 harg4 arg5 harg5 hc0 hc1 x0 x1 x2 xo3 xs0)]
  unfold kernelRun0_B
  dsimp only
  rw [View.canon_unit_zero hz]
  simp only [View.readAt_eq_ld, harg1.read_unread, harg2.read_unread, harg4.read_unread, View.ld_unit_zero (S := S512x4096) hz, View.ld_unit_zero (S := S4096x256) hz]

/-- The first point stores the zero row, reads it back, and leaves it plus its block's column sums. -/
theorem sout_A (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : cond0_0 i) (hc1 : ¬cond0_1 i) (x0 : Vec F S512x4096 .f32) (x1 : Vec F S4096x256 .bf16) (x2 : Vec F S256x256 .f32) :
    sout0_A_0 c i arg1 harg1 arg2 harg2 arg3 harg3 arg4 harg4 arg5 harg5 hc0 hc1 x0 x1 x2 = k0_pay4 x0 k0_pay2 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x4096) hz, View.readCov_unit_zero (S := S1x4096) _ hz]
  simp only [View.readAt_eq_ld, harg1.read_unread, View.ld_unit_zero (S := S512x4096) hz]

/-- The first point stores the zero block, reads it back, and leaves it plus its block's contribution. -/
theorem out_A (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : cond0_0 i) (hc1 : ¬cond0_1 i) (x0 : Vec F S512x4096 .f32) (x1 : Vec F S4096x256 .bf16) (x2 : Vec F S256x256 .f32) :
    out0_A_3 c i arg1 harg1 arg2 harg2 arg3 harg3 arg4 harg4 arg5 harg5 hc0 hc1 x0 x1 x2 = k0_pay3 x0 (xrows i x1) k0_pay1 := by
  unfold out0_A_3
  rw [View.read_writes_eq_canon _ _ _ (cover0_A_3 c i arg1 harg1 arg2 harg2 arg3 harg3 arg4 harg4 arg5 harg5 hc0 hc1 x0 x1 x2)]
  unfold kernelRun0_A
  dsimp only
  sl_unfold_words
  rw [View.canon_cons_unit_zero (S := S4096x256) hz, View.readCov_unit_zero (S := S4096x256) _ hz]
  simp only [View.readAt_eq_ld, harg1.read_unread, harg2.read_unread, View.ld_unit_zero (S := S512x4096) hz]
  rfl

/-- The last point leaves the in-degree row like a middle point. -/
theorem sout_C (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : cond0_1 i) (x0 : Vec F S512x4096 .f32) (x1 : Vec F S4096x256 .bf16) (x2 : Vec F S256x256 .f32) (xo3 : Vec F S4096x256 .f32) (xs0 : Vec F S1x4096 .f32) :
    sout0_C_0 c i arg1 harg1 arg2 harg2 arg3 harg3 arg4 harg4 arg5 harg5 hc0 hc1 x0 x1 x2 xo3 xs0 = k0_pay4 x0 xs0 := by
  unfold sout0_C_0
  rw [View.read_writes_eq_canon _ _ _ (scover0_C_0 c i arg1 harg1 arg2 harg2 arg3 harg3 arg4 harg4 arg5 harg5 hc0 hc1 x0 x1 x2 xo3 xs0)]
  unfold kernelRun0_C
  dsimp only
  sl_unfold_words
  rw [View.canon_unit_zero hz]
  simp only [View.readAt_eq_ld, harg1.read_unread, harg5.read_unread, View.ld_unit_zero (S := S512x4096) hz, View.ld_unit_zero (S := S1x4096) hz]

/-- The last point completes both sums like a middle point, reads them back, and leaves the epilogue's value of the
    completed in-degree row, the completed neighbour sums and the weights. -/
theorem out_C (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S256x256 .f32) (harg3 : arg3.IsWhole) (arg4 : Memref sig .tc .vmem S4096x256 .f32) (harg4 : arg4.IsWhole) (arg5 : Memref sig .tc .vmem S1x4096 .f32) (harg5 : arg5.IsWhole) (hc0 : ¬cond0_0 i) (hc1 : cond0_1 i) (x0 : Vec F S512x4096 .f32) (x1 : Vec F S4096x256 .bf16) (x2 : Vec F S256x256 .f32) (xo3 : Vec F S4096x256 .f32) (xs0 : Vec F S1x4096 .f32) :
    out0_C_3 c i arg1 harg1 arg2 harg2 arg3 harg3 arg4 harg4 arg5 harg5 hc0 hc1 x0 x1 x2 xo3 xs0 = k0_pay5 (k0_pay4 x0 xs0) (k0_pay3 x0 (xrows i x1) xo3) x2 := by
  unfold out0_C_3
  rw [View.read_writes_eq_canon _ _ _ (cover0_C_3 c i arg1 harg1 arg2 harg2 arg3 harg3 arg4 harg4 arg5 harg5 hc0 hc1 x0 x1 x2 xo3 xs0)]
  unfold kernelRun0_C
  dsimp only
  sl_unfold_words
  rw [View.canon_cons_unit_zero (S := S4096x256) hz, View.readCov_unit_zero (S := S1x4096) _ hz, View.readCov_unit_zero (S := S4096x256) _ hz]
  simp only [View.readAt_eq_ld, harg1.read_unread, harg2.read_unread, harg3.read_unread, harg4.read_unread, harg5.read_unread,
    View.ld_unit_zero (S := S512x4096) hz, View.ld_unit_zero (S := S1x4096) hz, View.ld_unit_zero (S := S4096x256) hz, View.ld_unit_zero (S := S256x256) hz]
  rfl

end Cert.KernelIdeal.Pieces

end
-- ==== Proof.Blocks.lean ====
/-
  What the kernel's windows hold at grid point `t`, read off the arrays the launch finds.

  The adjacency window is a block of 512 rows: at point `t` it holds rows `512·t … 512·t + 511`. The feature window,
  the weight window and the output window are the whole array at every point; of the feature block the body loads the
  512 rows `512·t … 512·t + 511`, the ones that belong to the adjacency block's rows. A block entry's place in its array
  is the block's index times the block's extent plus the entry's coordinate inside the block, on each axis.
-/
import proofs.«172029_g57251914056251_cont_9to1c4b_270_12_alg».proof.Proof.Gen.KernelIdeal.Frame
import Idealize.ShloMosaic.Lib.Pipeline.Value
import Idealize.ShloMosaic.Lib.ValueIdx
import proofs.«172029_g57251914056251_cont_9to1c4b_270_12_alg».proof.Proof.Spec
import proofs.«172029_g57251914056251_cont_9to1c4b_270_12_alg».proof.Proof.Pieces

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces Cert.Layer

variable (m : (ℓ : Loc nD τ sig) → Buf (Elt Ideal) ℓ) (c : Dev nD)

theorem t_lt (t : Fin cfg0.N) : t.val < 8 := lt_of_lt_of_eq t.isLt (show cfg0.N = 8 from N_0)

/-- Where each window's block sits at point `t`: the adjacency block is block row `t`; the features, the weights and
    the output are one block each. -/
theorem index_facts : ∀ t : Fin cfg0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = 0 ∧ win0_3.index t 1 = 0
      ∧ k0_off1 (grid0.coords t) 0 = 512 * t.val ∧ k0_off1 (grid0.coords t) 1 = 0 :=
  (by decide +kernel : ∀ t : Fin grid0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = 0 ∧ win0_3.index t 1 = 0
      ∧ k0_off1 (grid0.coords t) 0 = 512 * t.val ∧ k0_off1 (grid0.coords t) 1 = 0)

/-- The adjacency block at point `t`, at its row `l` and column `i`, is row `512·t + l` of the adjacency matrix. -/
theorem blk_adj (t : Fin cfg0.N) (l : Fin 512) (i : Fin 4096) :
    (iblk m c 0 t : Vec Ideal S512x4096 .f32) (ix2 l i) = rowN (V m c main_arg1) (512 * t.val + l.val) i := by
  have ht := t_lt t
  have hi := index_facts t
  unfold rowN
  rw [dif_pos (by omega : 512 * t.val + l.val < 4096)]
  unfold iblk
  rw [View.read_apply]
  show V m c main_arg1 _ = V m c main_arg1 _
  congr 1
  funext a
  apply Fin.ext
  match a with
  | ⟨0, _⟩ => show win0_0.index t 0 * 512 + 1 * l.val = 512 * t.val + l.val; rw [hi.1]; omega
  | ⟨1, _⟩ => show win0_0.index t 1 * 4096 + 1 * i.val = i.val; rw [hi.2.1]; omega

/-- The 512 feature rows the body loads at point `t`, at row `l` and feature `q`: row `512·t + l` of the features. -/
theorem blk_feat (t : Fin cfg0.N) (l : Fin 512) (q : Fin 256) :
    xrows (grid0.coords t) (iblk m c 1 t : Vec Ideal S4096x256 .bf16) (ix2 l q) = rowN (V m c main_v0) (512 * t.val + l.val) q := by
  have ht := t_lt t
  have hi := index_facts t
  unfold rowN
  rw [dif_pos (by omega : 512 * t.val + l.val < 4096)]
  unfold xrows iblk
  show View.read _ _ _ _ = _
  rw [View.read_apply]
  show V m c main_v0 _ = V m c main_v0 _
  congr 1
  funext a
  apply Fin.ext
  match a with
  | ⟨0, _⟩ =>
    show win0_1.index t 0 * 4096 + 1 * (k0_off1 (grid0.coords t) 0 + 1 * l.val) = 512 * t.val + l.val
    rw [hi.2.2.1, hi.2.2.2.2.2.2.2.2.1]; omega
  | ⟨1, _⟩ =>
    show win0_1.index t 1 * 256 + 1 * (k0_off1 (grid0.coords t) 1 + 1 * q.val) = q.val
    rw [hi.2.2.2.1, hi.2.2.2.2.2.2.2.2.2]; omega

/-- The weights block is the weight matrix. -/
theorem blk_w (t : Fin cfg0.N) (d k : Fin 256) :
    (iblk m c 2 t : Vec Ideal S256x256 .f32) (ix2 d k) = V m c main_arg2 (ix2 d k) := by
  have hi := index_facts t
  unfold iblk
  rw [View.read_apply]
  show V m c main_arg2 _ = V m c main_arg2 _
  congr 1
  funext a
  apply Fin.ext
  match a with
  | ⟨0, _⟩ => show win0_2.index t 0 * 256 + 1 * d.val = d.val; rw [hi.2.2.2.2.1]; omega
  | ⟨1, _⟩ => show win0_2.index t 1 * 256 + 1 * k.val = k.val; rw [hi.2.2.2.2.2.1]; omega

end Cert.KernelIdeal.Blocks

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payloads.lean ====
/-
  The kernel's stored values, entry by entry, over the extended reals.

  * The two reset values are zero everywhere.
  * The accumulated in-degree row: the row found plus, in lane `i`, the sum of column `i` over the block's 512 rows.
  * The accumulated neighbour sums: the block found plus, at node `p` and feature `q`, the sum over the block's 512 rows
    `l` of the indicator of a positive entry `(l, p)` times feature `q` of row `l`. The kernel makes the indicator by
    widening the comparison's bit to 32 bits and converting it as a signed integer; that is the number 0 or 1 the bit
    denotes. Narrowing to the 16-bit format changes no value here.
  * The epilogue: at node `p` and feature `d`, the maximum of zero and the sum over features `k` of the neighbour sum
    `(p, k)` divided by the in-degree of `p` (the one-row scratch transposed to a column and repeated along the feature
    axis) times the weight `(d, k)`.

  Each matrix product contracts one axis; its sum over the contraction index is re-indexed by that axis's coordinate.
-/
import proofs.«172029_g57251914056251_cont_9to1c4b_270_12_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«172029_g57251914056251_cont_9to1c4b_270_12_alg».proof.Proof.Spec
import proofs.«172029_g57251914056251_cont_9to1c4b_270_12_alg».proof.Proof.LibKeepdims

noncomputable section

namespace Cert.KernelIdeal.Payloads

open Idealize.ShloMosaic Idealize.ShloMosaic.ValueIdx Cert.KernelIdeal Cert.KernelIdeal.Gen Cert.Layer

/-! ## The two reset values -/

theorem pay1_apply (y : S4096x256.Idx) : k0_pay1 (F := Ideal) y = zeroWord := rfl

theorem pay2_apply (y : S1x4096.Idx) : k0_pay2 (F := Ideal) y = zeroWord := by
  unfold k0_pay2
  rw [shapeCast_self]
  rfl

/-! ## The in-degree row -/

theorem pay4_apply (v3 : Vec Ideal S512x4096 .f32) (v18 : Vec Ideal S1x4096 .f32) (u : Fin 1) (i : Fin 4096) :
    k0_pay4 (F := Ideal) v3 v18 (ix2 u i) = v18 (ix2 u i) + ∑ l : Fin 512, v3 (ix2 l i) := by
  unfold k0_pay4
  dsimp only
  rw [shapeCast_self]
  refine congrArg (v18 (ix2 u i) + ·) ?_
  refine (shapeCast_a_1a_apply _ shapeCasts_S4096_S1x4096 u i).trans ?_
  refine (Ideal.multiReduction_add_single (a := (0 : Fin S512x4096.rank)) v3 0x00000000#32 reduces_S512x4096_S4096 (.inl rfl) rfl (ix1 i)).trans ?_
  show ∑ l : Fin 512, v3 (reduces_S512x4096_S4096.lift (ix1 i) l) = _
  refine Finset.sum_congr rfl fun l _ => congrArg v3 (funext fun a => Fin.ext ?_)
  match a with
  | ⟨0, _⟩ => rfl
  | ⟨1, _⟩ => rfl

/-! ## The neighbour sums: the product of the transposed 0/1 block with the block's feature rows -/

theorem d1_lhs0 (j : S4096x256.Idx) (q : dot_S512x4096_S512x256_S4096x256_0_0_1_1_n_n.contr.Idx) :
    (dot_S512x4096_S512x256_S4096x256_0_0_1_1_n_n.lhsIdx j q 0).val = (q ⟨0, by decide⟩).val :=
  dot_S512x4096_S512x256_S4096x256_0_0_1_1_n_n.lhsIdx_val_of_single rfl j q
theorem d1_lhs1 (j : S4096x256.Idx) (q : dot_S512x4096_S512x256_S4096x256_0_0_1_1_n_n.contr.Idx) :
    (dot_S512x4096_S512x256_S4096x256_0_0_1_1_n_n.lhsIdx j q 1).val = (j 0).val := by
  unfold DotDims.lhsIdx
  rw [dif_neg (show ¬(1 : Fin S512x4096.rank) ∈ dot_S512x4096_S512x256_S4096x256_0_0_1_1_n_n.lhsBatch by decide), dif_pos (show (1 : Fin S512x4096.rank) ∈ dot_S512x4096_S512x256_S4096x256_0_0_1_1_n_n.lhsNonContracting by decide)]
  rfl
theorem d1_rhs0 (j : S4096x256.Idx) (q : dot_S512x4096_S512x256_S4096x256_0_0_1_1_n_n.contr.Idx) :
    (dot_S512x4096_S512x256_S4096x256_0_0_1_1_n_n.rhsIdx j q 0).val = (q ⟨0, by decide⟩).val :=
  dot_S512x4096_S512x256_S4096x256_0_0_1_1_n_n.rhsIdx_val_of_single rfl j q
theorem d1_rhs1 (j : S4096x256.Idx) (q : dot_S512x4096_S512x256_S4096x256_0_0_1_1_n_n.contr.Idx) :
    (dot_S512x4096_S512x256_S4096x256_0_0_1_1_n_n.rhsIdx j q 1).val = (j 1).val := by
  unfold DotDims.rhsIdx
  rw [dif_neg (show ¬(1 : Fin S512x256.rank) ∈ dot_S512x4096_S512x256_S4096x256_0_0_1_1_n_n.rhsBatch by decide), dif_pos (show (1 : Fin S512x256.rank) ∈ dot_S512x4096_S512x256_S4096x256_0_0_1_1_n_n.rhsNonContracting by decide)]
  rfl

theorem pay3_apply (v3 : Vec Ideal S512x4096 .f32) (v11 : Vec Ideal S512x256 .bf16) (v13 : Vec Ideal S4096x256 .f32) (p : Fin 4096) (q : Fin 256) :
    k0_pay3 (F := Ideal) v3 v11 v13 (ix2 p q) = v13 (ix2 p q) + ∑ l : Fin 512, pos (v3 (ix2 l p)) * v11 (ix2 l q) := by
  unfold k0_pay3
  rw [shapeCast_self, shapeCast_self]
  refine congrArg (v13 (ix2 p q) + ·) ?_
  refine (Ideal.matmul_constant_zero_apply (φ₁ := .bf16) (φ₂ := .bf16) dot_S512x4096_S512x256_S4096x256_0_0_1_1_n_n none _ _ (ix2 p q)).trans ?_
  rw [← Equiv.sum_comp (contrEquiv1 dot_S512x4096_S512x256_S4096x256_0_0_1_1_n_n 512 rfl rfl).symm]
  refine Finset.sum_congr rfl fun l _ => ?_
  have hk := contrEquiv1_symm_val dot_S512x4096_S512x256_S4096x256_0_0_1_1_n_n 512 rfl rfl l
  have el : dot_S512x4096_S512x256_S4096x256_0_0_1_1_n_n.lhsIdx (ix2 p q) ((contrEquiv1 dot_S512x4096_S512x256_S4096x256_0_0_1_1_n_n 512 rfl rfl).symm l) = ix2 l p := funext fun a => Fin.ext (by
    match a with
    | ⟨0, _⟩ => exact (d1_lhs0 _ _).trans hk
    | ⟨1, _⟩ => exact d1_lhs1 _ _)
  have er : dot_S512x4096_S512x256_S4096x256_0_0_1_1_n_n.rhsIdx (ix2 p q) ((contrEquiv1 dot_S512x4096_S512x256_S4096x256_0_0_1_1_n_n 512 rfl rfl).symm l) = ix2 l q := funext fun a => Fin.ext (by
    match a with
    | ⟨0, _⟩ => exact (d1_rhs0 _ _).trans hk
    | ⟨1, _⟩ => exact d1_rhs1 _ _)
  rw [el, er]
  refine congrArg (· * v11 (ix2 l q)) ?_
  exact sitofp_setWidth_eq_uitofp _

/-! ## The epilogue: divide by the in-degree, multiply by the transposed weights, clamp at zero -/

theorem d2_lhs0 (j : S4096x256.Idx) (q : dot_S4096x256_S256x256_S4096x256_1_1_0_0_n_n.contr.Idx) :
    (dot_S4096x256_S256x256_S4096x256_1_1_0_0_n_n.lhsIdx j q 0).val = (j 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
theorem d2_lhs1 (j : S4096x256.Idx) (q : dot_S4096x256_S256x256_S4096x256_1_1_0_0_n_n.contr.Idx) :
    (dot_S4096x256_S256x256_S4096x256_1_1_0_0_n_n.lhsIdx j q 1).val = (q ⟨0, by decide⟩).val :=
  dot_S4096x256_S256x256_S4096x256_1_1_0_0_n_n.lhsIdx_val_of_single rfl j q
theorem d2_rhs0 (j : S4096x256.Idx) (q : dot_S4096x256_S256x256_S4096x256_1_1_0_0_n_n.contr.Idx) :
    (dot_S4096x256_S256x256_S4096x256_1_1_0_0_n_n.rhsIdx j q 0).val = (j 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
theorem d2_rhs1 (j : S4096x256.Idx) (q : dot_S4096x256_S256x256_S4096x256_1_1_0_0_n_n.contr.Idx) :
    (dot_S4096x256_S256x256_S4096x256_1_1_0_0_n_n.rhsIdx j q 1).val = (q ⟨0, by decide⟩).val :=
  dot_S4096x256_S256x256_S4096x256_1_1_0_0_n_n.rhsIdx_val_of_single rfl j q

theorem pay5_apply (v28 : Vec Ideal S1x4096 .f32) (v30 : Vec Ideal S4096x256 .f32) (v34 : Vec Ideal S256x256 .f32) (p : Fin 4096) (d : Fin 256) :
    k0_pay5 (F := Ideal) v28 v30 v34 (ix2 p d)
      = max (∑ k : Fin 256, Ideal.div (v30 (ix2 p k)) (v28 (ix2 (0 : Fin 1) p)) * v34 (ix2 d k)) zeroWord := by
  unfold k0_pay5
  dsimp only
  rw [shapeCast_self]
  refine congrArg (max · zeroWord) ?_
  refine (Ideal.matmul_constant_zero_apply dot_S4096x256_S256x256_S4096x256_1_1_0_0_n_n none _ _ (ix2 p d)).trans ?_
  rw [← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 p d) ((contrEquiv1 dot_S4096x256_S256x256_S4096x256_1_1_0_0_n_n 256 rfl rfl).symm k) = ix2 p k := funext fun a => Fin.ext (by
    match a with
    | ⟨0, _⟩ => exact d2_lhs0 _ _
    | ⟨1, _⟩ => exact (d2_lhs1 _ _).trans hk)
  have er : dot_S4096x256_S256x256_S4096x256_1_1_0_0_n_n.rhsIdx (ix2 p d) ((contrEquiv1 dot_S4096x256_S256x256_S4096x256_1_1_0_0_n_n 256 rfl rfl).symm k) = ix2 d k := funext fun a => Fin.ext (by
    match a with
    | ⟨0, _⟩ => exact d2_rhs0 _ _
    | ⟨1, _⟩ => exact (d2_rhs1 _ _).trans hk)
  rw [el, er]
  refine congrArg (· * v34 (ix2 d k)) ?_
  refine congrArg (Ideal.div (v30 (ix2 p k)) ·) ?_
  refine (Cert.LibKeepdims.broadcastTo_a1_ab_apply _ broadcasts_S4096x1_S4096x256 p k).trans ?_
  exact transpose_ix2_apply v28 transposes_S1x4096_p1_0_S4096x1 p (0 : Fin 1)

end Cert.KernelIdeal.Payloads

end
-- ==== Proof.Accumulate.lean ====
/-
  The two running buffers after each grid point, in closed form.

  After point `n` the scratch row holds, in lane `i`, the sum of column `i` of the adjacency matrix over the first
  `n + 1` blocks of 512 rows; before the last point's epilogue the output block holds, at node `p` and feature `q`, the
  neighbour sum over the same rows. Both start from the zero the first point stores, so no constant is left over.
  This is an induction over the points: the first point gives `0 +` its block, every later point adds its block to
  what the point before left. After the eighth block the sums run over all 4096 source nodes, and the last point's
  epilogue turns them into the layer's output.
-/
import proofs.«172029_g57251914056251_cont_9to1c4b_270_12_alg».proof.Proof.Gen.KernelIdeal.Frame
import proofs.«172029_g57251914056251_cont_9to1c4b_270_12_alg».proof.Proof.Spec
import proofs.«172029_g57251914056251_cont_9to1c4b_270_12_alg».proof.Proof.Pieces
import proofs.«172029_g57251914056251_cont_9to1c4b_270_12_alg».proof.Proof.Payloads
import proofs.«172029_g57251914056251_cont_9to1c4b_270_12_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payloads Cert.KernelIdeal.Blocks Cert.Layer

variable (m : (ℓ : Loc nD τ sig) → Buf (Elt Ideal) ℓ) (c : Dev nD)

/-- Block `s`'s share of node `i`'s in-degree: column `i` summed over rows `512·s … 512·s + 511`. -/
def degBlock (s : ℕ) (i : Fin 4096) : Ideal .f32 :=
  ∑ l : Fin 512, rowN (V m c main_arg1) (512 * s + l.val) i

/-- Block `s`'s share of the neighbour sum at node `p` and feature `q`. -/
def aggBlock (s : ℕ) (p : Fin 4096) (q : Fin 256) : Ideal .f32 :=
  ∑ l : Fin 512, pos (rowN (V m c main_arg1) (512 * s + l.val) p) * rowN (V m c main_v0) (512 * s + l.val) q

/-! ## One point -/

theorem scratch_first (t : Fin cfg0.N) (h0 : t.val % 8 = 0) (h1 : ¬t.val % 8 = 7) (u : Fin 1) (i : Fin 4096) :
    (outsAt0 m c t.val t.isLt).2 (ix2 u i) = zeroWord + degBlock m c t.val i := by
  rw [outsAt0_A m c t h0 h1]
  dsimp only
  rw [sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  refine (pay4_apply (iblk m c 0 t) (k0_pay2 (F := Ideal)) u i).trans ?_
  rw [pay2_apply]
  unfold degBlock
  exact congrArg (zeroWord + ·) (Finset.sum_congr rfl fun l _ => blk_adj m c t l i)

theorem scratch_middle (t : Fin cfg0.N) (h0 : ¬t.val % 8 = 0) (h1 : ¬t.val % 8 = 7) (u : Fin 1) (i : Fin 4096) :
    (outsAt0 m c t.val t.isLt).2 (ix2 u i) = (outsAt0 m c (t.val - 1) (Nat.lt_of_le_of_lt (Nat.sub_le _ _) t.isLt)).2 (ix2 u i) + degBlock m c t.val i := by
  rw [outsAt0_B m c t h0 h1]
  dsimp only
  rw [sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2]
  refine (pay4_apply (iblk m c 0 t) (outsAt0 m c (t.val - 1) (Nat.lt_of_le_of_lt (Nat.sub_le _ _) t.isLt)).2 u i).trans ?_
  unfold degBlock
  exact congrArg ((outsAt0 m c (t.val - 1) (Nat.lt_of_le_of_lt (Nat.sub_le _ _) t.isLt)).2 (ix2 u i) + ·) (Finset.sum_congr rfl fun l _ => blk_adj m c t l i)

theorem scratch_last (t : Fin cfg0.N) (h0 : ¬t.val % 8 = 0) (h1 : t.val % 8 = 7) (u : Fin 1) (i : Fin 4096) :
    (outsAt0 m c t.val t.isLt).2 (ix2 u i) = (outsAt0 m c (t.val - 1) (Nat.lt_of_le_of_lt (Nat.sub_le _ _) t.isLt)).2 (ix2 u i) + degBlock m c t.val i := by
  rw [outsAt0_C m c t h0 h1]
  dsimp only
  rw [sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2]
  refine (pay4_apply (iblk m c 0 t) (outsAt0 m c (t.val - 1) (Nat.lt_of_le_of_lt (Nat.sub_le _ _) t.isLt)).2 u i).trans ?_
  unfold degBlock
  exact congrArg ((outsAt0 m c (t.val - 1) (Nat.lt_of_le_of_lt (Nat.sub_le _ _) t.isLt)).2 (ix2 u i) + ·) (Finset.sum_congr rfl fun l _ => blk_adj m c t l i)

theorem out_first (t : Fin cfg0.N) (h0 : t.val % 8 = 0) (h1 : ¬t.val % 8 = 7) (p : Fin 4096) (q : Fin 256) :
    (outsAt0 m c t.val t.isLt).1 (ix2 p q) = zeroWord + aggBlock m c t.val p q := by
  rw [outsAt0_A m c t h0 h1]
  dsimp only
  rw [out_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  refine (pay3_apply (iblk m c 0 t) (xrows (grid0.coords t) (iblk m c 1 t)) (k0_pay1 (F := Ideal)) p q).trans ?_
  rw [pay1_apply]
  unfold aggBlock
  exact congrArg (zeroWord + ·) (Finset.sum_congr rfl fun l _ => by rw [blk_adj m c t l p, blk_feat m c t l q])

theorem out_middle (t : Fin cfg0.N) (h0 : ¬t.val % 8 = 0) (h1 : ¬t.val % 8 = 7) (p : Fin 4096) (q : Fin 256) :
    (outsAt0 m c t.val t.isLt).1 (ix2 p q) = (outsAt0 m c (t.val - 1) (Nat.lt_of_le_of_lt (Nat.sub_le _ _) t.isLt)).1 (ix2 p q) + aggBlock m c t.val p q := by
  rw [outsAt0_B m c t h0 h1]
  dsimp only
  rw [out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2]
  refine (pay3_apply (iblk m c 0 t) (xrows (grid0.coords t) (iblk m c 1 t)) (outsAt0 m c (t.val - 1) (Nat.lt_of_le_of_lt (Nat.sub_le _ _) t.isLt)).1 p q).trans ?_
  unfold aggBlock
  exact congrArg ((outsAt0 m c (t.val - 1) (Nat.lt_of_le_of_lt (Nat.sub_le _ _) t.isLt)).1 (ix2 p q) + ·) (Finset.sum_congr rfl fun l _ => by rw [blk_adj m c t l p, blk_feat m c t l q])

/-- The last point: the epilogue of both sums completed by the last block. -/
theorem out_last (t : Fin cfg0.N) (h0 : ¬t.val % 8 = 0) (h1 : t.val % 8 = 7) (p : Fin 4096) (d : Fin 256) :
    (outsAt0 m c t.val t.isLt).1 (ix2 p d)
      = max (∑ k : Fin 256, Ideal.div ((outsAt0 m c (t.val - 1) (Nat.lt_of_le_of_lt (Nat.sub_le _ _) t.isLt)).1 (ix2 p k) + aggBlock m c t.val p k)
          ((outsAt0 m c (t.val - 1) (Nat.lt_of_le_of_lt (Nat.sub_le _ _) t.isLt)).2 (ix2 (0 : Fin 1) p) + degBlock m c t.val p) * V m c main_arg2 (ix2 d k)) zeroWord := by
  rw [outsAt0_C m c t h0 h1]
  dsimp only
  rw [out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2]
  refine (pay5_apply (k0_pay4 (iblk m c 0 t) (outsAt0 m c (t.val - 1) (Nat.lt_of_le_of_lt (Nat.sub_le _ _) t.isLt)).2) (k0_pay3 (iblk m c 0 t) (xrows (grid0.coords t) (iblk m c 1 t)) (outsAt0 m c (t.val - 1) (Nat.lt_of_le_of_lt (Nat.sub_le _ _) t.isLt)).1) (iblk m c 2 t) p d).trans ?_
  refine congrArg (max · zeroWord) (Finset.sum_congr rfl fun k _ => ?_)
  refine congrArg₂ (· * ·) (congrArg₂ Ideal.div ?_ ?_) (blk_w m c t d k)
  · refine (pay3_apply (iblk m c 0 t) (xrows (grid0.coords t) (iblk m c 1 t)) (outsAt0 m c (t.val - 1) (Nat.lt_of_le_of_lt (Nat.sub_le _ _) t.isLt)).1 p k).trans ?_
    unfold aggBlock
    exact congrArg ((outsAt0 m c (t.val - 1) (Nat.lt_of_le_of_lt (Nat.sub_le _ _) t.isLt)).1 (ix2 p k) + ·) (Finset.sum_congr rfl fun l _ => by rw [blk_adj m c t l p, blk_feat m c t l k])
  · refine (pay4_apply (iblk m c 0 t) (outsAt0 m c (t.val - 1) (Nat.lt_of_le_of_lt (Nat.sub_le _ _) t.isLt)).2 (0 : Fin 1) p).trans ?_
    unfold degBlock
    exact congrArg ((outsAt0 m c (t.val - 1) (Nat.lt_of_le_of_lt (Nat.sub_le _ _) t.isLt)).2 (ix2 (0 : Fin 1) p) + ·) (Finset.sum_congr rfl fun l _ => blk_adj m c t l p)

/-! ## All points -/

/-- The scratch row after point `n`: the in-degree over the first `n + 1` blocks. -/
theorem scratch_eq : ∀ (n : ℕ) (h : n < cfg0.N) (u : Fin 1) (i : Fin 4096),
    (outsAt0 m c n h).2 (ix2 u i) = ∑ s ∈ Finset.range (n + 1), degBlock m c s i
  | 0, h, u, i => by
    have e := scratch_first m c ⟨0, h⟩ rfl (by dsimp only; omega) u i
    rw [zeroWord_eq, zero_add] at e
    rw [Finset.sum_range_one]
    exact e
  | n + 1, h, u, i => by
    have hN : n + 1 < 8 := lt_of_lt_of_eq h (show cfg0.N = 8 from N_0)
    rw [Finset.sum_range_succ, ← scratch_eq n (Nat.lt_of_succ_lt h) u i]
    by_cases h7 : n + 1 = 7
    · exact scratch_last m c ⟨n + 1, h⟩ (by dsimp only; omega) (by dsimp only; omega) u i
    · exact scratch_middle m c ⟨n + 1, h⟩ (by dsimp only; omega) (by dsimp only; omega) u i

/-- The output block after point `n`, before the last point: the neighbour sums over the first `n + 1` blocks. -/
theorem out_eq : ∀ (n : ℕ) (h : n < cfg0.N), n < 7 → ∀ (p : Fin 4096) (q : Fin 256),
    (outsAt0 m c n h).1 (ix2 p q) = ∑ s ∈ Finset.range (n + 1), aggBlock m c s p q
  | 0, h, _, p, q => by
    have e := out_first m c ⟨0, h⟩ rfl (by dsimp only; omega) p q
    rw [zeroWord_eq, zero_add] at e
    rw [Finset.sum_range_one]
    exact e
  | n + 1, h, h7, p, q => by
    rw [Finset.sum_range_succ, ← out_eq n (Nat.lt_of_succ_lt h) (by omega) p q]
    exact out_middle m c ⟨n + 1, h⟩ (by dsimp only; omega) (by dsimp only; omega) p q

/-- After the last point (the one whose number is 7) the output block is the layer of the three arrays the launch
    finds: the point before left the sums over seven blocks, the last point adds the eighth and applies the epilogue. -/
theorem out_final_succ (n : ℕ) (h : n + 1 < cfg0.N) (hn : n + 1 = 7) :
    (outsAt0 m c (n + 1) h).1 = layer (V m c main_v0) (V m c main_arg1) (V m c main_arg2) := by
  funext y
  obtain ⟨p, d, rfl⟩ : ∃ (p : Fin 4096) (d : Fin 256), y = ix2 p d := ⟨y 0, y 1, eq_ix2 y⟩
  refine (out_last m c ⟨n + 1, h⟩ (by dsimp only; omega) (by dsimp only; omega) p d).trans ?_
  show _ = max (∑ k : Fin 256, Ideal.div (agg (V m c main_v0) (V m c main_arg1) p k) (deg (V m c main_arg1) p)
    * V m c main_arg2 (ix2 d k)) zeroWord
  refine congrArg (max · zeroWord) (Finset.sum_congr rfl fun k _ => ?_)
  refine congrArg (· * V m c main_arg2 (ix2 d k)) (congrArg₂ Ideal.div ?_ ?_)
  · refine (congrArg (· + aggBlock m c (n + 1) p k) (out_eq m c n (Nat.lt_of_succ_lt h) (by omega) p k)).trans ?_
    rw [← Finset.sum_range_succ]
    obtain rfl : n = 6 := by omega
    exact agg_blocks (V m c main_v0) (V m c main_arg1) p k
  · refine (congrArg (· + degBlock m c (n + 1) p) (scratch_eq m c n (Nat.lt_of_succ_lt h) (0 : Fin 1) p)).trans ?_
    rw [← Finset.sum_range_succ]
    obtain rfl : n = 6 := by omega
    exact deg_blocks (V m c main_arg1) p

theorem out_final (h : 7 < cfg0.N) :
    (outsAt0 m c 7 h).1 = layer (V m c main_v0) (V m c main_arg1) (V m c main_arg2) :=
  out_final_succ m c 6 h rfl

end Cert.KernelIdeal.Accum

end
-- ==== Proof.KernelValue.lean ====
/-
  The kernel's run, read as a value.

  The output window is written back once, after the last grid point, and its one block is the whole output array; so
  after the region the output array holds what the last point left in the output block, which is the layer of the
  arrays the launch found. The host line before the region only narrows the features to the 16-bit format, which
  changes no value over the extended reals, and no host line writes the adjacency matrix or the weights; so those
  arrays are the program's arguments. The host line after the region adds a leading unit axis to the output array.
-/
import proofs.«172029_g57251914056251_cont_9to1c4b_270_12_alg».proof.Proof.Gen.KernelIdeal.Frame
import Idealize.ShloMosaic.Lib.Pipeline.Value
import Idealize.ShloMosaic.Lib.StableHlo.Run
import Idealize.ShloMosaic.Lib.Tactic
import proofs.«172029_g57251914056251_cont_9to1c4b_270_12_alg».proof.Proof.Spec
import proofs.«172029_g57251914056251_cont_9to1c4b_270_12_alg».proof.Proof.Blocks
import proofs.«172029_g57251914056251_cont_9to1c4b_270_12_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum Cert.Layer

variable (m : (ℓ : Loc nD τ sig) → Buf (Elt Ideal) ℓ) (ρ : Dev nD → PrngReg)

/-- The output array after the region: the layer of the arrays the region found. -/
abbrev outArr (c : Dev nD) : Buf (Elt Ideal) ((c : Thread nD τ).loc main_v1) :=
  layer (V m c main_v0) (V m c main_arg1) (V m c main_arg2)

/-- The one write-back, after point 7, writes the layer: the output's block at index (0, 0) is the whole array. -/
theorem flushed_eq (c : Dev nD) (t : Fin cfg0.N) (hf : (cfg0.win 3).flush t = true) :
    (dats m 0 c).flushed 3 t = ((cfg0.win 3).blk t).view.read (Elt Ideal) (outArr m c) := by
  have ht := t_lt t
  have h7 : t.val = 7 := by have := (flush0_3 t).mp hf; omega
  have hi := index_facts t
  have e : (outsAt0 m c t.val t.isLt).1 = outArr m c := by
    obtain ⟨n, hn⟩ := t
    dsimp only at h7 ⊢
    subst h7
    exact out_final m c hn
  show (cfg0.win 3).cut (grid0.coords t) ((dats m 0 c).after 3 t) = _
  rw [after0_3, e]
  have hz' : (fun a => win0_3.index t a * main_v1.ty.shape.size a) = fun _ => 0 := funext fun a => by
    match a with
    | ⟨0, _⟩ => show win0_3.index t 0 * 4096 = 0; rw [hi.2.2.2.2.2.2.1]
    | ⟨1, _⟩ => show win0_3.index t 1 * 256 = 0; rw [hi.2.2.2.2.2.2.2.1]
  exact (Memref.read_access_unit_zero (Elt Ideal) main_v1 hz' (fun a => by rw [congrFun hz' a]; simp) (outArr m c)).symm

/-- That block covers the output array, so the array ends holding the layer. -/
theorem final_out (c : Dev nD) : (dats m 0 c).arrAt 3 cfg0.N = outArr m c :=
  (dats m 0 c).arrAt_eq_of_cover 3 (outArr m c) (flushed_eq m c) fun i =>
    ⟨t0_7, (flush0_3 t0_7).mpr rfl, by
      show i ∈ ((View.whole main_v1).slice (win0_3.rect t0_7)).set
      rw [View.set_slice_whole, Rect.mem_set_unit]
      intro a
      have h0 : (i 0 : Nat) < 4096 := (i 0).isLt
      have h1 : (i 1 : Nat) < 256 := (i 1).isLt
      match a with
      | ⟨0, _⟩ =>
        show win0_3.index t0_7 0 * win0_3.size 0 ≤ (i 0 : Nat) ∧ (i 0 : Nat) < win0_3.index t0_7 0 * win0_3.size 0 + win0_3.xsize (grid0.coords t0_7) 0
        rw [show win0_3.index t0_7 0 * win0_3.size 0 = 0 from by decide +kernel, show win0_3.xsize (grid0.coords t0_7) 0 = 4096 from by decide +kernel]; omega
      | ⟨1, _⟩ =>
        show win0_3.index t0_7 1 * win0_3.size 1 ≤ (i 1 : Nat) ∧ (i 1 : Nat) < win0_3.index t0_7 1 * win0_3.size 1 + win0_3.xsize (grid0.coords t0_7) 1
        rw [show win0_3.index t0_7 1 * win0_3.size 1 = 0 from by decide +kernel, show win0_3.xsize (grid0.coords t0_7) 1 = 256 from by decide +kernel]; omega⟩

/-- The features as the region finds them: the argument narrowed to 16 bits, entry by entry the argument itself. -/
theorem V_features (c : Dev nD) :
    (V m c main_v0 : S4096x256.Idx → Ideal .bf16) = m ((c : Thread nD τ).loc main_arg0) := by
  show StableHlo.after hostOps0 (fun b => m (c, b)) (Proc.devRef .tc main_v0) = _
  after_results
  rfl

/-- So the output array after the region is the layer of the three arguments. -/
theorem outArr_eq (c : Dev nD) :
    outArr m c = layer (m ((c : Thread nD τ).loc main_arg0)) (m ((c : Thread nD τ).loc main_arg1)) (m ((c : Thread nD τ).loc main_arg2)) := by
  unfold outArr
  rw [V_features m c, V_main_arg1 m c, V_main_arg2 m c]

/-- The program's result: the layer with a leading unit axis. -/
abbrev result (c : Dev nD) : Buf (Elt Ideal) ((c : Thread nD τ).loc main_v2) :=
  broadcastInDim S1x4096x256 ![1, 2] bcast_S4096x256_S1x4096x256_1_2
    (layer (m ((c : Thread nD τ).loc main_arg0)) (m ((c : Thread nD τ).loc main_arg1)) (m ((c : Thread nD τ).loc main_arg2)))

/-- The host line after the region reads the output array the region left. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  exact congrArg (broadcastInDim S1x4096x256 ![1, 2] bcast_S4096x256_S1x4096x256_1_2)
    (((Pipeline.withArrays_arr spec0 launch0.win.arr_inj c (V0 m c) (fun w => (dats m 0 c).arrAt w cfg0.N) 3).trans (final_out m c)).trans (outArr_eq m c))

/-- Every weakly fair execution of the program terminates with the result array at the layer of the arguments (with a
    leading unit axis) and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  A graph-convolution layer computed block by block equals the same layer computed in one piece.

  Both programs take node features `x` (4096 × 256), an adjacency matrix `adj` (4096 × 4096) and weights `U`
  (256 × 256) and return, for node `i` and feature `d`,

      max (∑ₖ ((∑ⱼ [adj j i > 0] · x j k) / (∑ⱼ adj j i)) · U d k) 0

  with a leading unit axis. The reference forms the 0/1 mask, the column sums and the two matrix products on whole
  arrays. The kernel streams the adjacency matrix in eight blocks of 512 rows; for each block it adds the block's
  column sums to a running in-degree row and the block's masked feature sums to the running output block, and after the
  last block it divides, multiplies by the transposed weights and clamps at zero.

  Over the extended reals the two agree because a sum over 4096 source nodes is the sum of its eight consecutive
  blocks of 512 (commutativity and associativity of addition only, so the finiteness of the inputs is not used), the
  kernel's signed reading of the widened comparison bit is the reference's unsigned reading of the bit, a change of
  float format changes no value, and each transpose only swaps the coordinates an array is read at. Both running sums
  start from the zero the first block stores.

  The three frame claims are the generated frame proofs of the two kernel programs and the reference's generated run.
  The idealization rewrote no operation, so its soundness claim is trivial.
-/
import proofs.«172029_g57251914056251_cont_9to1c4b_270_12_alg».proof.Defs
import proofs.«172029_g57251914056251_cont_9to1c4b_270_12_alg».proof.Proof.Gen.Kernel
import proofs.«172029_g57251914056251_cont_9to1c4b_270_12_alg».proof.Proof.Gen.Kernel.Frame
import proofs.«172029_g57251914056251_cont_9to1c4b_270_12_alg».proof.Proof.Gen.KernelIdeal
import proofs.«172029_g57251914056251_cont_9to1c4b_270_12_alg».proof.Proof.Gen.KernelIdeal.Frame
import proofs.«172029_g57251914056251_cont_9to1c4b_270_12_alg».proof.Proof.Gen.ReferenceIdeal
import proofs.«172029_g57251914056251_cont_9to1c4b_270_12_alg».proof.Proof.Gen.ReferenceIdeal.Run
import proofs.«172029_g57251914056251_cont_9to1c4b_270_12_alg».proof.Proof.Gen.ReferenceIdeal.Read
import proofs.«172029_g57251914056251_cont_9to1c4b_270_12_alg».proof.Proof.Gen.Pre_finite_inputs
import proofs.«172029_g57251914056251_cont_9to1c4b_270_12_alg».proof.Proof.RefSide
import proofs.«172029_g57251914056251_cont_9to1c4b_270_12_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the layer of its arguments and so does the reference's,
    of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Layer.Ref.ref_result _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
